-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2000000 : Shape := ⟨2, ![16, 2000000]⟩
abbrev S_ : Shape := ⟨0, ![]⟩

class Facts : Prop where
  bcast_S_S16x2000000 : S_.BroadcastsInDim S16x2000000 (![] : Fin 0 → Fin S16x2000000.rank)
  reducesTo_S16x2000000_S_d0_1 : S16x2000000.ReducesTo [0, 1] S_
  h_S_ : 0 < S_.numel
  reducesTo_S_S_d : S_.ReducesTo [] S_

variable [Facts]

def fn {F : FTy → Type} [FloatOps F] (main_arg0 : FVec F S16x2000000 .f32) (main_arg1 : FVec F S_ .f32) : IVec S_ 1 :=
  let main_v0 : FVec F S16x2000000 .f32 := Host.absf main_arg0
  let main_cst : FVec F S_ .f32 := constant S_ .f32 0x7F800000#32
  let main_v1 : FVec F S16x2000000 .f32 := broadcastInDim S16x2000000 ![] bcast_S_S16x2000000 main_cst
  let main_v2 : IVec S16x2000000 1 := cmpf .olt main_v0 main_v1
  let main_c : IVec S_ 1 := constantI S_ 1 1#1
  let main_v3 : IVec S_ 1 := (fun x v => Host.reduce IntOp.andi x v reducesTo_S16x2000000_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S16x2000000 : Shape := ⟨2, ![16, 2000000]⟩
abbrev S_ : Shape := ⟨0, ![]⟩
abbrev S16x16 : Shape := ⟨2, ![16, 16]⟩
abbrev S16x65536 : Shape := ⟨2, ![16, 65536]⟩
abbrev S65536 : Shape := ⟨1, ![65536]⟩
abbrev S1x65536 : Shape := ⟨2, ![1, 65536]⟩

abbrev nBuf : Space → Nat
  | .hbm => 24
  | .vmem => 5
  | .smem => 0
  | _ => 0

abbrev bufTy : (tb : Table) → Fin (tcTables nBuf tb) → BufTy
  | .hbm, ⟨0, _⟩ => ⟨S16x2000000, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S16x16, .i32⟩
  | .hbm, ⟨5, _⟩ => ⟨S16x16, .i32⟩
  | .hbm, ⟨6, _⟩ => ⟨S_, .i32⟩
  | .hbm, ⟨7, _⟩ => ⟨S16x16, .i32⟩
  | .hbm, ⟨8, _⟩ => ⟨S16x16, .i32⟩
  | .hbm, ⟨9, _⟩ => ⟨S16x16, .i1⟩
  | .hbm, ⟨10, _⟩ => ⟨S16x16, .f32⟩
  | .hbm, ⟨11, _⟩ => ⟨S_, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S_, .f32⟩
  | .hbm, ⟨19, _⟩ => ⟨S_, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S16x2000000, .f32⟩
  | .local _ .vmem, ⟨0, _⟩ => ⟨S16x65536, .f32⟩
  | .local _ .vmem, ⟨1, _⟩ => ⟨S16x65536, .f32⟩
  | .local _ .vmem, ⟨2, _⟩ => ⟨S16x16, .f32⟩
  | .local _ .vmem, ⟨3, _⟩ => ⟨S16x65536, .f32⟩
  | .local _ .vmem, ⟨4, _⟩ => ⟨S16x65536, .f32⟩
  | _, _ => ⟨S16x2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16x16 : S_.BroadcastsInDim S16x16 (![] : Fin 0 → Fin S16x16.rank)
  inb_S16x65536_S16x65536_0_0 : ∀ a, (![0, 0] : Fin 2 → Nat) a + S16x65536.size a ≤ S16x65536.size a
  h_S16x65536 : 0 < S16x65536.numel
  reduces_S16x65536_S65536 : S16x65536.Reduces [0] S65536
  shapeCasts_S65536_S1x65536 : S65536.ShapeCasts S1x65536
  broadcasts_S1x65536_S16x65536 : S1x65536.Broadcasts S16x65536
  inb_S16x16_S16x16_0_0 : ∀ a, (![0, 0] : Fin 2 → Nat) a + S16x16.size a ≤ S16x16.size a
  h_S16x16 : 0 < S16x16.numel
  shapeCasts_S16x16_S16x16 : S16x16.ShapeCasts S16x16
  bitsLt_bf16_f32 : FTy.bits .bf16 < FTy.bits .f32
  dot_S16x16_S16x65536_S16x65536_1_0_0_1_n_n_wf : DotDims.WF S16x16 S16x65536 S16x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x65536.size a < S16x2000000.size a
  hwx0_0 : ∀ i : grid0.Coords, EltTy.bits .f32 = 32 ∨ (Rect.unit (s := S16x2000000) (fun a => cc0_transform_0 i a * S16x65536.size a) (fun a => (Pipeline.Clip.of (cc0_transform_0 i a) (S16x65536.size a) (S16x2000000.size a)).extent (S16x65536.size a)) fun a => Pipeline.Clip.inb (Pipeline.Clip.ok_of (hstart0_0 i a))).WholeWords (EltTy.packing .f32)
  hwxs0_0 : ∀ i : grid0.Coords, EltTy.bits .f32 = 32 ∨ (Rect.unit (s := S16x65536) (fun _ => 0) (fun a => (Pipeline.Clip.of (cc0_transform_0 i a) (S16x65536.size a) (S16x2000000.size a)).extent (S16x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x65536.size a < S16x2000000.size a
  hwx0_2 : ∀ i : grid0.Coords, EltTy.bits .f32 = 32 ∨ (Rect.unit (s := S16x2000000) (fun a => cc0_transform_2 i a * S16x65536.size a) (fun a => (Pipeline.Clip.of (cc0_transform_2 i a) (S16x65536.size a) (S16x2000000.size a)).extent (S16x65536.size a)) fun a => Pipeline.Clip.inb (Pipeline.Clip.ok_of (hstart0_2 i a))).WholeWords (EltTy.packing .f32)
  hwxs0_2 : ∀ i : grid0.Coords, EltTy.bits .f32 = 32 ∨ (Rect.unit (s := S16x65536) (fun _ => 0) (fun a => (Pipeline.Clip.of (cc0_transform_2 i a) (S16x65536.size a) (S16x2000000.size a)).extent (S16x65536.size a)) fun a => (Nat.zero_add _).trans_le (Pipeline.Clip.extent_le (Pipeline.Clip.ok_of (hstart0_2 i a)))).WholeWords (EltTy.packing .f32)

variable [Facts₀]

def dot_S16x16_S16x65536_S16x65536_1_0_0_1_n_n : DotDims S16x16 S16x65536 S16x65536 where
  lhsContracting := [1]
  rhsContracting := [0]
  lhsNonContracting := [0]
  rhsNonContracting := [1]
  lhsBatch := []
  rhsBatch := []
  wf := dot_S16x16_S16x65536_S16x65536_1_0_0_1_n_n_wf

abbrev win0_0 : Pipeline.Window sig grid0 :=
  Pipeline.Window.ofSpecClip (Memref.whole main_arg0) S16x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v16) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v17) S16x65536.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2000000 : Shape := ⟨2, ![16, 2000000]⟩
abbrev S_ : Shape := ⟨0, ![]⟩
abbrev S16x16 : Shape := ⟨2, ![16, 16]⟩
abbrev S2000000 : Shape := ⟨1, ![2000000]⟩
abbrev S1x2000000 : Shape := ⟨2, ![1, 2000000]⟩

abbrev nBuf : Space → Nat
  | .hbm => 33
  | .vmem => 0
  | .smem => 0
  | _ => 0

abbrev bufTy : (tb : Table) → Fin (tcTables nBuf tb) → BufTy
  | .hbm, ⟨0, _⟩ => ⟨S16x2000000, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S16x16, .i32⟩
  | .hbm, ⟨5, _⟩ => ⟨S16x16, .i32⟩
  | .hbm, ⟨6, _⟩ => ⟨S_, .i32⟩
  | .hbm, ⟨7, _⟩ => ⟨S16x16, .i32⟩
  | .hbm, ⟨8, _⟩ => ⟨S16x16, .i32⟩
  | .hbm, ⟨9, _⟩ => ⟨S16x16, .i1⟩
  | .hbm, ⟨10, _⟩ => ⟨S16x16, .f32⟩
  | .hbm, ⟨11, _⟩ => ⟨S_, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S_, .f32⟩
  | .hbm, ⟨19, _⟩ => ⟨S_, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S_, .f32⟩
  | .hbm, ⟨24, _⟩ => ⟨S2000000, .f32⟩
  | .hbm, ⟨25, _⟩ => ⟨S1x2000000, .f32⟩
  | .hbm, ⟨26, _⟩ => ⟨S16x2000000, .f32⟩
  | .hbm, ⟨27, _⟩ => ⟨S16x2000000, .f32⟩
  | .hbm, ⟨28, _⟩ => ⟨S16x2000000, .f32⟩
  | .hbm, ⟨29, _⟩ => ⟨S16x2000000, .f32⟩
  | .hbm, ⟨30, _⟩ => ⟨S16x2000000, .f32⟩
  | .hbm, ⟨31, _⟩ => ⟨S16x2000000, .f32⟩
  | .hbm, ⟨32, _⟩ => ⟨S16x2000000, .f32⟩
  | _, _ => ⟨S16x2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S16x16 : S_.BroadcastsInDim S16x16 (![] : Fin 0 → Fin S16x16.rank)
  reducesTo_S16x2000000_S2000000_d0 : S16x2000000.ReducesTo [0] S2000000
  h_S_ : 0 < S_.numel
  bcast_S2000000_S1x2000000_1 : S2000000.BroadcastsInDim S1x2000000 (![1] : Fin 1 → Fin S1x2000000.rank)
  bcast_S1x2000000_S16x2000000_0_1 : S1x2000000.BroadcastsInDim S16x2000000 (![0, 1] : Fin 2 → Fin S16x2000000.rank)
  dot_S16x16_S16x2000000_S16x2000000_1_0_0_1_n_n_wf : DotDims.WF S16x16 S16x2000000 S16x2000000 [1] [0] [0] [1] [] []

variable [Facts₀]

def dot_S16x16_S16x2000000_S16x2000000_1_0_0_1_n_n : DotDims S16x16 S16x2000000 S16x2000000 where
  lhsContracting := [1]
  rhsContracting := [0]
  lhsNonContracting := [0]
  rhsNonContracting := [1]
  lhsBatch := []
  rhsBatch := []
  wf := dot_S16x16_S16x2000000_S16x2000000_1_0_0_1_n_n_wf

class Facts : Prop extends Facts₀ where

variable [Facts]
-- ==== Proof.KernelBody.lean ====
/-
  The kernel body as a Hoare triple, at any float instance.

  The body reads the whole of its column block `x` (sixteen rows by 65536 columns) and the whole 16×16 transfer
  matrix `T`, and overwrites the whole of its output block with ONE value computed from the two: the stabilised
  logarithm of `T · exp x`, column by column.  Both inputs are left as they were.  Nothing else is touched.
-/
import proofs.«147532_j13838384628287_1_alg».proof.Proof.Gen.Kernel.Frame
import proofs.«147532_j13838384628287_1_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The one rectangle the body reads its column block and writes its result through: the whole 16 × 65536 block. -/
abbrev rBlock : Rect S16x65536 := Rect.unit (s := S16x65536) ![0, 0] S16x65536.size inb_S16x65536_S16x65536_0_0
/-- The rectangle it reads the transfer matrix through: all of it. -/
abbrev rMat : Rect S16x16 := Rect.unit (s := S16x16) ![0, 0] S16x16.size inb_S16x16_S16x16_0_0

theorem zero_off : (![0, 0] : Fin 2 → Nat) = fun _ => 0 := funext fun a => by fin_cases a <;> rfl

/-- The one store covers the output block. -/
theorem cover_block (p0 : Vec F S16x65536 .f32) (y : S16x65536.Idx) :
    ∃ pc ∈ ([⟨rBlock, p0⟩] : List (View.Piece (Elt F) S16x65536 .f32)), y ∈ pc.1.set :=
  View.cover_of_tiled [⟨rBlock, p0⟩] S16x65536.size (by rfl) y

set_option maxHeartbeats 1000000 in
/-- The body on three whole buffers — the column block at `x0`, the matrix at `x1`, the output at anything — runs
    without fault and leaves the inputs as they were and the output at the body's one value of the two. -/
theorem sound_kernel (c : Dev nD) (E : Set ℕ) (i : grid0.Coords)
    (arg1 : Memref sig .tc .vmem S16x65536 .f32) (harg1 : arg1.IsWhole)
    (arg2 : Memref sig .tc .vmem S16x16 .f32) (harg2 : arg2.IsWhole)
    (arg3 : Memref sig .tc .vmem S16x65536 .f32) (harg3 : arg3.IsWhole)
    (x0 : Vec F S16x65536 .f32) (x1 : Vec F S16x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E
          (cc0__leaky_transfer_kernel i arg1 harg1 arg2 harg2 arg3 harg3) K := by
  simp only [cc0__leaky_transfer_kernel_eq_skeleton]; unfold cc0__leaky_transfer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_block _), View.canon_unit_zero zero_off]
  simp only [View.readAt_eq_ld, View.ld_unit_zero (S := S16x65536) zero_off, View.ld_unit_zero (S := S16x16) zero_off]

end Cert.Kernel.Hand

end
-- ==== Proof.KernelFrame.lean ====
/-
  The word-level kernel runs to the end, faults nowhere, and leaves its two argument arrays as they were.

  For this claim nothing need be said about what any staging buffer holds: the body (see the body module) runs from
  ANY contents of its three buffers and never faults, the column array is only ever read by the pipeline's fetches,
  and the scalar argument is staged by no window.  So every window's contents are left unnamed.
-/
import proofs.«147532_j13838384628287_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's contents are named. -/
def forgetAll : Fin 3 → Bool := fun _ => true

/-- The arrays as the region finds them; what the body leaves in the buffers, unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at a point: the three current buffers at any contents, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

/-- and what it hands back: the same buffers at some contents. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  iapply (sound_kernel c Set.univ (grid0.coords t) _ _ _ _ _ _ d0 d1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

theorem body_obligation (c : Dev nD) :
    BodyObligation (dats (F := F) m 0 c) (defs₀ (F := F)) Variants.none () Set.univ forgetAll := fun t => by
  rw [bigSep_W0, bigSep_W0]
  exact sound_body m c t

set_option backward.isDefEq.respectTransparency.types false in
/-- Every weakly fair execution terminates without a fault; the arrays the pipeline stages end at contents the
    relational reading allows, every other unscoped buffer as the region found it. -/
theorem run_main : θ_run defs (onTc (τ := τ) (main (F := F))) (s₀ m ρ)
    (Pipeline.RDat.FramePost (cfgs 0) (fun c => (dats m 0 c).toRForget forgetAll) (V m)) :=
  Pipeline.RDat.θ_run_frame cfgs (0 : Fin 1) launch0 defs₀ Variants.none (fun c => (dats m 0 c).toRForget forgetAll) m ρ main
    (hbody := fun c => (body_obligation m c).toRForget)
    (hshare := fun c => ((dats m 0 c).toRForget forgetAll).share_full fun _ => rfl)
    (howed := fun _ _ => rfl) (V := V m) (hmain := hmain m Variants.none) (hA := A_eq m) (hΦ := fun _ _ => rfl)

/-- The frame: the column array is an input of the pipeline, never written; the scalar is staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgetAll).ArrAt_in 0 rfl _) _) ((h c).1 0)).trans
        ((A_eq m c 0).trans (V_main_arg0 m c)),
      ((h c).2 main_arg1 (Pipeline.mem_restRefs_of main_arg1 (by decide) (by decide))).trans (V_main_arg1 m c)⟩)
    (run_main m ρ)

end Cert.Kernel.Hand

end
-- ==== Proof.KernelIdealBody.lean ====
/-
  The kernel body as a Hoare triple, at any float instance.

  The body reads the whole of its column block `x` (sixteen rows by 65536 columns) and the whole 16×16 transfer
  matrix `T`, and overwrites the whole of its output block with ONE value computed from the two: the stabilised
  logarithm of `T · exp x`, column by column.  Both inputs are left as they were.  Nothing else is touched.
-/
import proofs.«147532_j13838384628287_1_alg».proof.Proof.Gen.KernelIdeal.Frame
import proofs.«147532_j13838384628287_1_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The one rectangle the body reads its column block and writes its result through: the whole 16 × 65536 block. -/
abbrev rBlock : Rect S16x65536 := Rect.unit (s := S16x65536) ![0, 0] S16x65536.size inb_S16x65536_S16x65536_0_0
/-- The rectangle it reads the transfer matrix through: all of it. -/
abbrev rMat : Rect S16x16 := Rect.unit (s := S16x16) ![0, 0] S16x16.size inb_S16x16_S16x16_0_0

theorem zero_off : (![0, 0] : Fin 2 → Nat) = fun _ => 0 := funext fun a => by fin_cases a <;> rfl

/-- The one store covers the output block. -/
theorem cover_block (p0 : Vec F S16x65536 .f32) (y : S16x65536.Idx) :
    ∃ pc ∈ ([⟨rBlock, p0⟩] : List (View.Piece (Elt F) S16x65536 .f32)), y ∈ pc.1.set :=
  View.cover_of_tiled [⟨rBlock, p0⟩] S16x65536.size (by rfl) y

set_option maxHeartbeats 1000000 in
/-- The body on three whole buffers — the column block at `x0`, the matrix at `x1`, the output at anything — runs
    without fault and leaves the inputs as they were and the output at the body's one value of the two. -/
theorem sound_kernel (c : Dev nD) (E : Set ℕ) (i : grid0.Coords)
    (arg1 : Memref sig .tc .vmem S16x65536 .f32) (harg1 : arg1.IsWhole)
    (arg2 : Memref sig .tc .vmem S16x16 .f32) (harg2 : arg2.IsWhole)
    (arg3 : Memref sig .tc .vmem S16x65536 .f32) (harg3 : arg3.IsWhole)
    (x0 : Vec F S16x65536 .f32) (x1 : Vec F S16x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E
          (cc0__leaky_transfer_kernel i arg1 harg1 arg2 harg2 arg3 harg3) K := by
  simp only [cc0__leaky_transfer_kernel_eq_skeleton]; unfold cc0__leaky_transfer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_block _), View.canon_unit_zero zero_off]
  simp only [View.readAt_eq_ld, View.ld_unit_zero (S := S16x65536) zero_off, View.ld_unit_zero (S := S16x16) zero_off]

end Cert.KernelIdeal.Hand

end
-- ==== Proof.Spec.lean ====
/-
  The mathematics both programs compute, stated once over plain index types.

  Sixteen states, any number of columns.  For a column `col` of sixteen extended reals let
  `M = max (-∞, col 0, …, col 15)`.  Row `p` of the result in that column is
      log (∑ₖ T(p,k) · exp (col k - M)) + M,
  the stabilised logarithm of row `p` of `T · exp col`.  Every entry of the result depends on ONE column of the
  input only: this is what makes a tiling of the columns into blocks — the last of which runs past the end of the
  array — harmless.
-/
import Idealize.ShloMosaic.PureOps.Ideal
import Idealize.ShloMosaic.Lib.ValueIdx

noncomputable section

open scoped BigOperators

namespace Cert.Lse

open Idealize.ShloMosaic Idealize.ShloMosaic.ValueIdx

/-- The largest of a column's sixteen entries, folded from `-∞` (the float pattern `0xFF800000`). -/
def colMax (col : Fin 16 → EReal) : EReal :=
  (Finset.univ : Finset (Fin 16)).fold max (Ideal.ofBits .f32 0xFF800000#32) col

/-- One entry: row `trow` of the transfer matrix against the column `col`, stabilised by the column's maximum. -/
def lse (trow col : Fin 16 → EReal) : EReal :=
  Ideal.log (∑ k : Fin 16, trow k * Ideal.exp (col k - colMax col)) + colMax col

/-- The whole result over `n` columns: entry `(p, j)` is `lse` of row `p` of `T` and column `j` of `x`. -/
def G {n : Nat} (T : (⟨2, ![16, 16]⟩ : Shape).Idx → EReal) (x : (⟨2, ![16, n]⟩ : Shape).Idx → EReal) :
    (⟨2, ![16, n]⟩ : Shape).Idx → EReal :=
  fun i => lse (fun k => T (ix2 (n0 := 16) (n1 := 16) ⟨(i 0).val, (i 0).isLt⟩ k))
    (fun k => x (ix2 (n0 := 16) (n1 := n) k ⟨(i 1).val, (i 1).isLt⟩))

/-- `G` at explicit coordinates. -/
theorem G_ix2 {n : Nat} (T : (⟨2, ![16, 16]⟩ : Shape).Idx → EReal) (x : (⟨2, ![16, n]⟩ : Shape).Idx → EReal)
    (p : Fin 16) (j : Fin n) :
    G T x (ix2 p j) = lse (fun k => T (ix2 p k)) (fun k => x (ix2 k j)) := rfl

/-- An entry of the result reads one column of the input: two inputs that agree on column `j` give the same
    entries in column `j`. -/
theorem G_congr_col {n n' : Nat} (T : (⟨2, ![16, 16]⟩ : Shape).Idx → EReal)
    (x : (⟨2, ![16, n]⟩ : Shape).Idx → EReal) (x' : (⟨2, ![16, n']⟩ : Shape).Idx → EReal)
    (p : Fin 16) (j : Fin n) (j' : Fin n') (h : ∀ k : Fin 16, x (ix2 k j) = x' (ix2 k j')) :
    G T x (ix2 p j) = G T x' (ix2 p j') := by
  rw [G_ix2, G_ix2]
  exact congrArg _ (funext h)

end Cert.Lse

end
-- ==== Proof.KernelIdealFrame.lean ====
/-
  The idealised kernel's pipeline, point by point.

  The 2,000,000 columns are cut into 31 blocks of 65536; the last block runs 31,616 columns past the end of the
  array.  At every point the pipeline fetches the point's column block — the part of it inside the array; the rest
  of the buffer holds words nothing names —, the body overwrites the output block with its one value of the column
  block and the transfer matrix, and the pipeline writes back the part of the output block that lies inside the
  array.  Because an entry of the body's value reads ONE column of the column block (the specification's
  `G_congr_col`), the unnamed words past the array's end never reach a column that is written back: on the columns
  inside the array the output block is the body's value of the column block filled out with zeros.
-/
import proofs.«147532_j13838384628287_1_alg».proof.Proof.KernelIdealBody
import proofs.«147532_j13838384628287_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The body's one value is the specification's function of the matrix and the column block (proved where the
    body's arithmetic is read entry by entry; taken here as a hypothesis, which the assembly discharges). -/
def PayIsG : Prop :=
  ∀ (X : Vec Ideal S16x65536 .f32) (T : Vec Ideal S16x16 .f32), k0_pay1 (F := Ideal) X T = Cert.Lse.G (n := 65536) T X

variable (m : (ℓ : Loc nD τ sig) → Buf (Elt Ideal) ℓ) (ρ : Dev nD → PrngReg)

/-! ## The proof data -/

/-- The column block at point `t`: its part inside the array, filled out past the array's end with zeros. -/
def xblk (c : Dev nD) (t : Fin cfg0.N) : S16x65536.Idx → Elt Ideal .f32 :=
  win0_0.fill (grid0.coords t) (fun _ => ((0 : EReal) : Elt Ideal .f32)) (iblk m c 0 t)

/-- After the body at point `t`: the column block's buffer as fetched, the matrix's buffer at the matrix, the output's
    at the body's value of the two. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => iblk m c 1 t
    | ⟨2, _⟩ => k0_pay1 (F := Ideal) (xblk m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xblk m c t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay1 (F := Ideal) (xblk m c t) (iblk m c 1 t) := by dsimp only [dats]

/-- The column block's buffer is fetched at every point: the block's part inside the array, anything elsewhere. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- The matrix's buffer holds the matrix at every point. -/
theorem before0_1 (c : Dev nD) (t : Fin cfg0.N) (d) : (dats m 0 c).before 1 t d = iblk m c 1 t :=
  before0_1_of m (dats m 0 c) (A_eq m c 1) (after0_1 m c) t d

/-- The output's buffer was written back at the point before: it holds anything. -/
theorem before0_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

/-! ## One column at a time -/

/-- The column block's window keeps all sixteen rows. -/
theorem xsize_rows (i : grid0.Coords) : win0_0.xsize i 0 = 16 := rfl

/-- Two fillings of one fetched block agree on every column the fetch filled. -/
theorem fill_col_agree (i : grid0.Coords) (d0 d1 : S16x65536.Idx → Elt Ideal .f32)
    (B : (win0_0.xblock i).Idx → Elt Ideal .f32) (k : Fin 16) (q : Fin 65536) (hq : q.val < win0_0.xsize i 1) :
    win0_0.fill i d0 B (ix2 k q) = win0_0.fill i d1 B (ix2 k q) := by
  have hm : win0_0.moved i (ix2 k q) = true := (win0_0.moved_iff i _).mpr fun a => by
    match a with
    | ⟨0, _⟩ => exact (xsize_rows i).symm ▸ k.isLt
    | ⟨1, _⟩ => exact hq
  unfold Window.fill
  rw [dif_pos hm, dif_pos hm]

/-- So the body's value, on the columns that are written back, does not depend on what filled the buffer out. -/
theorem pay_local (hpay : PayIsG) (i : grid0.Coords) (d0 d1 : S16x65536.Idx → Elt Ideal .f32)
    (B : (win0_0.xblock i).Idx → Elt Ideal .f32) (T : Vec Ideal S16x16 .f32) :
    win0_2.cut i (k0_pay1 (F := Ideal) (win0_0.fill i d0 B) T) = win0_2.cut i (k0_pay1 (F := Ideal) (win0_0.fill i d1 B) T) := by
  funext j
  show k0_pay1 (F := Ideal) (win0_0.fill i d0 B) T (win0_2.xinj i j) = k0_pay1 (F := Ideal) (win0_0.fill i d1 B) T (win0_2.xinj i j)
  rw [hpay, hpay]
  have hj : win0_2.xinj i j = ix2 (n0 := 16) (n1 := 65536) ⟨(j 0).val, Nat.lt_of_lt_of_le (j 0).isLt (win0_2.xsize_le i 0)⟩
      ⟨(j 1).val, Nat.lt_of_lt_of_le (j 1).isLt (win0_2.xsize_le i 1)⟩ :=
    funext fun a => by match a with | ⟨0, _⟩ => rfl | ⟨1, _⟩ => rfl
  rw [hj]
  exact Cert.Lse.G_congr_col T _ _ _ _ _ fun k => fill_col_agree i d0 d1 B k _ (j 1).isLt

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t)))))

theorem sound_body (hpay : PayIsG) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xblk m c t) = iblk m c 0 t from win0_0.cut_fill _ _ _]
    iexact H0
  isplitl [H1]; · iexact H1
  iexists (k0_pay1 (F := Ideal) (win0_0.fill (grid0.coords t) d0 (iblk m c 0 t)) (iblk m c 1 t))
  unfold xblk
  rw [win0_2.fill_congr_cut (grid0.coords t) (pay_local hpay (grid0.coords t) d0 _ (iblk m c 0 t) (iblk m c 1 t))]
  iexact H2

theorem body_obligation (hpay : PayIsG) (c : Dev nD) :
    BodyObligationLoose (dats m 0 c) (defs₀ (F := Ideal)) Variants.none () Set.univ := fun t => by
  rw [bigSep_W0, bigSep_W0]
  exact sound_body m hpay c t

end Cert.KernelIdeal.Hand

end
-- ==== Proof.SpecLaws.lean ====
/-
  One more law of the specification: an entry of the result reads one ROW of the transfer matrix and one COLUMN of
  the input, so matrices that agree on the row and inputs that agree on the column give the same entry — whatever
  the number of columns on either side.
-/
import proofs.«147532_j13838384628287_1_alg».proof.Proof.Spec

noncomputable section

namespace Cert.Lse

open Idealize.ShloMosaic Idealize.ShloMosaic.ValueIdx

theorem G_congr {n n' : Nat} (T T' : (⟨2, ![16, 16]⟩ : Shape).Idx → EReal)
    (x : (⟨2, ![16, n]⟩ : Shape).Idx → EReal) (x' : (⟨2, ![16, n']⟩ : Shape).Idx → EReal)
    (p : Fin 16) (j : Fin n) (j' : Fin n')
    (hT : ∀ k : Fin 16, T (ix2 p k) = T' (ix2 p k)) (hx : ∀ k : Fin 16, x (ix2 k j) = x' (ix2 k j')) :
    G T x (ix2 p j) = G T' x' (ix2 p j') := by
  rw [G_ix2, G_ix2, show (fun k => T (ix2 p k)) = fun k => T' (ix2 p k) from funext hT,
    show (fun k => x (ix2 k j)) = fun k => x' (ix2 k j') from funext hx]

end Cert.Lse

end
-- ==== Proof.KernelIdealFinal.lean ====
/-
  From blocks to the array, and the idealised kernel's run.

  Point `t` writes back columns `65536·t … 65536·t + (the block's width inside the array) - 1`; the 31 points'
  ranges are consecutive and end at column 2,000,000, so together they are all the columns.  What point `t` writes
  back is the specification's function of the transfer matrix and the column array, read through the point's block:
  entry `(p, q)` of the block is entry `(p, 65536·t + q)` of the array, and it reads column `q` of the column
  block, which is column `65536·t + q` of the column array.  So the output array ends holding the specification's
  function of the transfer matrix and the column array, and the two arguments end as they were.
-/
import proofs.«147532_j13838384628287_1_alg».proof.Proof.KernelIdealFrame
import proofs.«147532_j13838384628287_1_alg».proof.Proof.SpecLaws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The index maps and the cuts, decided once over the 31 points: the column windows sit at block `(0, t)`, the
    matrix's at `(0, 0)`; all sixteen rows are kept; the kept width is at most a block's, ends inside the array,
    and is a whole block's unless it ends exactly at the array's end. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_2.xsize (grid0.coords t) (0 : Fin 2) = 16
    ∧ win0_2.xsize (grid0.coords t) (1 : Fin 2) ≤ 65536
    ∧ t.val * 65536 + win0_2.xsize (grid0.coords t) (1 : Fin 2) ≤ 2000000
    ∧ (win0_2.xsize (grid0.coords t) (1 : Fin 2) = 65536 ∨ t.val * 65536 + win0_2.xsize (grid0.coords t) (1 : Fin 2) = 2000000)
    ∧ win0_0.xsize (grid0.coords t) (1 : Fin 2) = win0_2.xsize (grid0.coords t) (1 : Fin 2) :=
  (by decide +kernel : ∀ t : Fin grid0.N, _)

/-- An entry of the column block inside the array is the column array's entry in column `65536·t + q`. -/
theorem xblk_apply (c : Dev nD) (t : Fin cfg0.N) (k : Fin 16) (q : Fin 65536)
    (hq : q.val < win0_0.xsize (grid0.coords t) 1) (hcol : t.val * 65536 + q.val < 2000000) :
    xblk m c t (ix2 k q) = V m c main_arg0 (ix2 (n0 := 16) (n1 := 2000000) k ⟨t.val * 65536 + q.val, hcol⟩) := by
  have hm : win0_0.moved (grid0.coords t) (ix2 k q) = true := (win0_0.moved_iff _ _).mpr fun a => by
    match a with
    | ⟨0, _⟩ => exact (xsize_rows (grid0.coords t)).symm ▸ k.isLt
    | ⟨1, _⟩ => exact hq
  unfold xblk Window.fill
  rw [dif_pos hm]
  show V m c main_arg0 (((cfg0.win 0).blk t).view.emb _) = V m c main_arg0 _
  obtain ⟨e0, e1, -⟩ := idx_facts t
  refine congrArg _ (funext fun a => Fin.ext ?_)
  match a with
  | ⟨0, _⟩ => show win0_0.index t (0 : Fin 2) * 16 + 1 * k.val = k.val; omega
  | ⟨1, _⟩ => show win0_0.index t (1 : Fin 2) * 65536 + 1 * q.val = t.val * 65536 + q.val; omega

/-- The matrix's block is the matrix. -/
theorem tblk_apply (c : Dev nD) (t : Fin cfg0.N) (p k : Fin 16) :
    iblk m c 1 t (ix2 p k) = V m c main_v16 (ix2 p k) := by
  show V m c main_v16 (((cfg0.win 1).blk t).view.emb _) = V m c main_v16 _
  obtain ⟨-, -, e2, e3, -⟩ := idx_facts t
  refine congrArg _ (funext fun a => Fin.ext ?_)
  match a with
  | ⟨0, _⟩ => show win0_1.index t (0 : Fin 2) * 16 + 1 * p.val = p.val; omega
  | ⟨1, _⟩ => show win0_1.index t (1 : Fin 2) * 16 + 1 * k.val = k.val; omega

/-- What point `t` writes back is the specification's function of the matrix and the column array, read through
    the point's block. -/
theorem flushed_eq (hpay : PayIsG) (c : Dev nD) (t : Fin cfg0.N) :
    (dats m 0 c).flushed 2 t
      = ((cfg0.win 2).blk t).view.read (Elt Ideal) (Cert.Lse.G (n := 2000000) (V m c main_v16) (V m c main_arg0)) := by
  show (cfg0.win 2).cut (grid0.coords t) ((dats m 0 c).after 2 t) = _
  rw [after0_2, hpay]
  obtain ⟨e0, e1, e2, e3, e4, e5, e6, e7, e8, e9, e10⟩ := idx_facts t
  funext j
  have hj0 : (j 0).val < win0_2.xsize (grid0.coords t) (0 : Fin 2) := (j 0).isLt
  have hj1 : (j 1).val < win0_2.xsize (grid0.coords t) (1 : Fin 2) := (j 1).isLt
  have hp : (j 0).val < 16 := by omega
  have hq : (j 1).val < 65536 := by omega
  have hcol : t.val * 65536 + (j 1).val < 2000000 := by omega
  have hl : win0_2.xinj (grid0.coords t) j = ix2 (n0 := 16) (n1 := 65536) ⟨(j 0).val, hp⟩ ⟨(j 1).val, hq⟩ :=
    funext fun a => by match a with | ⟨0, _⟩ => rfl | ⟨1, _⟩ => rfl
  have hr : ((cfg0.win 2).blk t).view.emb j
      = ix2 (n0 := 16) (n1 := 2000000) ⟨(j 0).val, hp⟩ ⟨t.val * 65536 + (j 1).val, hcol⟩ :=
    funext fun a => Fin.ext (by
      match a with
      | ⟨0, _⟩ => show win0_2.index t (0 : Fin 2) * 16 + 1 * (j 0).val = (j 0).val; omega
      | ⟨1, _⟩ => show win0_2.index t (1 : Fin 2) * 65536 + 1 * (j 1).val = t.val * 65536 + (j 1).val; omega)
  show Cert.Lse.G (n := 65536) (iblk m c 1 t) (xblk m c t) (win0_2.xinj (grid0.coords t) j)
    = Cert.Lse.G (n := 2000000) (V m c main_v16) (V m c main_arg0) (((cfg0.win 2).blk t).view.emb j)
  rw [hl, hr]
  exact Cert.Lse.G_congr _ _ _ _ _ _ _ (fun k => tblk_apply m c t _ k)
    (fun k => xblk_apply m c t k ⟨(j 1).val, hq⟩ (by rw [e10]; exact hj1) hcol)

/-- An index of the array is in point `t`'s block iff each coordinate is in the block's range, cut at the array's end. -/
theorem mem_blk (t : Fin cfg0.N) (i : S16x2000000.Idx) :
    i ∈ ((cfg0.win 2).blk t).view.set ↔ ∀ a : Fin 2, win0_2.index t a * S16x65536.size a ≤ (i a).val
      ∧ (i a).val < win0_2.index t a * S16x65536.size a + win0_2.xsize (grid0.coords t) a := by
  show i ∈ ((View.whole main_v17).slice (win0_2.rect t)).set ↔ _
  rw [View.set_slice_whole, Rect.mem_set_unit]
  exact Iff.rfl

/-- Every column lies in the block of the point `column / 65536`. -/
theorem cover (i : S16x2000000.Idx) :
    ∃ t : Fin cfg0.N, (cfg0.win 2).flush t = true ∧ i ∈ ((cfg0.win 2).blk t).view.set := by
  have hi0 : (i 0).val < 16 := (i 0).isLt
  have hi1 : (i 1).val < 2000000 := (i 1).isLt
  have hN : grid0.N = 31 := N_0
  have ht : (i 1).val / 65536 < cfg0.N := by show _ < grid0.N; omega
  refine ⟨⟨(i 1).val / 65536, ht⟩, flush0_2 _, ?_⟩
  rw [mem_blk]
  obtain ⟨-, -, -, -, e4, e5, e6, e7, e8, e9, -⟩ := idx_facts ⟨(i 1).val / 65536, ht⟩
  intro a
  match a with
  | ⟨0, _⟩ =>
    show win0_2.index ⟨(i 1).val / 65536, ht⟩ (0 : Fin 2) * 16 ≤ (i 0).val
      ∧ (i 0).val < win0_2.index ⟨(i 1).val / 65536, ht⟩ (0 : Fin 2) * 16 + win0_2.xsize (grid0.coords ⟨(i 1).val / 65536, ht⟩) (0 : Fin 2)
    omega
  | ⟨1, _⟩ =>
    show win0_2.index ⟨(i 1).val / 65536, ht⟩ (1 : Fin 2) * 65536 ≤ (i 1).val
      ∧ (i 1).val < win0_2.index ⟨(i 1).val / 65536, ht⟩ (1 : Fin 2) * 65536 + win0_2.xsize (grid0.coords ⟨(i 1).val / 65536, ht⟩) (1 : Fin 2)
    have e5' : win0_2.index ⟨(i 1).val / 65536, ht⟩ (1 : Fin 2) = (i 1).val / 65536 := e5
    have e8' : (i 1).val / 65536 * 65536 + win0_2.xsize (grid0.coords ⟨(i 1).val / 65536, ht⟩) (1 : Fin 2) ≤ 2000000 := e8
    have e9' : win0_2.xsize (grid0.coords ⟨(i 1).val / 65536, ht⟩) (1 : Fin 2) = 65536
        ∨ (i 1).val / 65536 * 65536 + win0_2.xsize (grid0.coords ⟨(i 1).val / 65536, ht⟩) (1 : Fin 2) = 2000000 := e9
    omega

/-- The output array after the run. -/
theorem final2 (hpay : PayIsG) (c : Dev nD) :
    (dats m 0 c).arrAt 2 cfg0.N = Cert.Lse.G (n := 2000000) (V m c main_v16) (V m c main_arg0) :=
  (dats m 0 c).arrAt_eq_of_cover 2 _ (fun t _ => flushed_eq m hpay c t) cover

set_option backward.isDefEq.respectTransparency.types false in
/-- Every weakly fair execution terminates without a fault, every array of the pipeline at what the proof data
    computes and every other unscoped buffer as the region found it. -/
theorem run_main (hpay : PayIsG) : θ_run defs (onTc (τ := τ) (main (F := Ideal))) (s₀ m ρ)
    (Pipeline.FramePost cfgs (dats m) 0 (V m)) :=
  Pipeline.θ_run_frame cfgs (dats m) (0 : Fin 1) launch0 defs₀ Variants.none m ρ main
    (hbody := fun c => body_obligation m hpay c) (hshare := fun c => (dats m 0 c).share_full fun _ => rfl)
    (howed := fun _ _ => rfl) (V := V m) (hmain := hmain m Variants.none) (hA := A_eq m) (hΦ := fun _ _ => rfl)

/-- The run, read: the output array at the specification's function of the transfer matrix (as the host operations
    before the region leave it) and the column array; the two arguments as they were. -/
theorem run (hpay : PayIsG) : θ_run defs (onTc (τ := τ) (main (F := Ideal))) ⟨m, fun _ => 0, ρ⟩ fun r => ∀ c : Dev nD,
      r.2.mem ((c.tc : Thread nD τ).loc main_v17)
        = Cert.Lse.G (n := 2000000) (V m c main_v16) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans ((final2 m hpay c).trans (by rw [V_main_arg0])),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ hpay)

end Cert.KernelIdeal.Hand

end
-- ==== Proof.PayValue.lean ====
/-
  The kernel body's one payload, read entry by entry.

  The body takes a block `X` of sixteen rows and a sixteen-by-sixteen matrix `T`.  For each column `q` of the block it
  takes the maximum `M q` of the column's sixteen entries, folded from `-∞`; it subtracts `M q` from every entry of the
  column and exponentiates; it multiplies `T` into the result (a sum over the sixteen states, into a zero accumulator);
  it takes the logarithm and adds `M q` back.  Entry `(p, q)` of what it stores is therefore
      log (∑ₖ T(p,k) · exp (X(k,q) - M q)) + M q,
  the function `Cert.Lse.G` of the block: each entry reads one column of the block only.
-/
import proofs.«147532_j13838384628287_1_alg».proof.Proof.Gen.KernelIdeal.Skeleton
import proofs.«147532_j13838384628287_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Idealize.SL.Sem
open Cert.KernelIdeal Cert.KernelIdeal.Gen

variable [Cert.KernelIdeal.Facts]

/-! ## The column maximum -/

/-- A column index `q` with the row `k` put back on the reduced axis is the entry `(k, q)`. -/
theorem lift_ix2 (h : S16x65536.Reduces [0] S65536) (q : Fin 65536) (k : Fin (S16x65536.size 0)) :
    h.lift (ix1 q) k = ix2 (⟨k.val, k.isLt⟩ : Fin 16) q := by
  funext c; apply Fin.ext
  match c with
  | ⟨0, _⟩ => rfl
  | ⟨1, _⟩ => rfl

/-- The reduction over the sixteen rows with a maximum body, from `-∞`, is at column `q` the maximum of that column. -/
theorem colMax_apply (X : FVec Ideal S16x65536 .f32) (h : S16x65536.Reduces [0] S65536)
    (hφ : FTy.f32 = FTy.f32 ∨ FTy.f32 = FTy.bf16) (hacc : (0xFF800000#32 : BitVec 32) = 0xFF800000#32) (q : Fin 65536) :
    multiReduction .maximumf [0] S65536 X 0xFF800000#32 h hφ hacc (ix1 q)
      = Cert.Lse.colMax (fun k => X (ix2 k q)) := by
  refine (Ideal.multiReduction_maximumf_single X 0xFF800000#32 h hφ hacc (ix1 q)).trans ?_
  have hf : (X ∘ h.lift (ix1 q)) = fun k : Fin 16 => X (ix2 k q) := funext fun k => congrArg X (lift_ix2 h q k)
  exact congrArg (fun f => Finset.fold max (Ideal.ofBits .f32 0xFF800000#32) f (Finset.univ : Finset (Fin 16))) hf

/-- A vector of column values cast to one row and broadcast down the sixteen rows reads, at `(p, q)`, the value of
    column `q`. -/
theorem rowBroadcast_apply {α : Type} (v : S65536.Idx → α) (hc : S65536.ShapeCasts S1x65536)
    (hb : S1x65536.Broadcasts S16x65536) (p : Fin 16) (q : Fin 65536) :
    broadcastTo S16x65536 (shapeCast S1x65536 v hc) hb (ix2 p q) = v (ix1 q) :=
  (broadcastTo_1b_ab_apply _ hb p q).trans (shapeCast_a_1a_apply v hc 0 q)

/-- So the column maxima, cast to one row and broadcast down the rows, read at `(r, q)` the maximum of column `q`. -/
theorem maxBroadcast_apply (X : FVec Ideal S16x65536 .f32) (h : S16x65536.Reduces [0] S65536)
    (hφ : FTy.f32 = FTy.f32 ∨ FTy.f32 = FTy.bf16) (hacc : (0xFF800000#32 : BitVec 32) = 0xFF800000#32)
    (hc : S65536.ShapeCasts S1x65536) (hb : S1x65536.Broadcasts S16x65536) (r : Fin 16) (q : Fin 65536) :
    broadcastTo S16x65536 (shapeCast S1x65536 (multiReduction .maximumf [0] S65536 X 0xFF800000#32 h hφ hacc) hc) hb (ix2 r q)
      = Cert.Lse.colMax (fun k => X (ix2 k q)) :=
  (rowBroadcast_apply _ hc hb r q).trans (colMax_apply X h hφ hacc q)

/-! ## The product with the transfer matrix -/

theorem lhs_0 (i : S16x65536.Idx) (c : dot_S16x16_S16x65536_S16x65536_1_0_0_1_n_n.contr.Idx) :
    (dot_S16x16_S16x65536_S16x65536_1_0_0_1_n_n.lhsIdx i c 0).val = (i 0).val := by
  unfold DotDims.lhsIdx
  rw [dif_neg (show ¬(0 : Fin S16x16.rank) ∈ dot_S16x16_S16x65536_S16x65536_1_0_0_1_n_n.lhsBatch by decide), dif_pos (show (0 : Fin S16x16.rank) ∈ dot_S16x16_S16x65536_S16x65536_1_0_0_1_n_n.lhsNonContracting by decide)]
  rfl
theorem lhs_1 (i : S16x65536.Idx) (c : dot_S16x16_S16x65536_S16x65536_1_0_0_1_n_n.contr.Idx) :
    (dot_S16x16_S16x65536_S16x65536_1_0_0_1_n_n.lhsIdx i c 1).val = (c ⟨0, by decide⟩).val :=
  dot_S16x16_S16x65536_S16x65536_1_0_0_1_n_n.lhsIdx_val_of_single rfl i c
theorem rhs_0 (i : S16x65536.Idx) (c : dot_S16x16_S16x65536_S16x65536_1_0_0_1_n_n.contr.Idx) :
    (dot_S16x16_S16x65536_S16x65536_1_0_0_1_n_n.rhsIdx i c 0).val = (c ⟨0, by decide⟩).val :=
  dot_S16x16_S16x65536_S16x65536_1_0_0_1_n_n.rhsIdx_val_of_single rfl i c
theorem rhs_1 (i : S16x65536.Idx) (c : dot_S16x16_S16x65536_S16x65536_1_0_0_1_n_n.contr.Idx) :
    (dot_S16x16_S16x65536_S16x65536_1_0_0_1_n_n.rhsIdx i c 1).val = (i 1).val := by
  unfold DotDims.rhsIdx
  rw [dif_neg (show ¬(1 : Fin S16x65536.rank) ∈ dot_S16x16_S16x65536_S16x65536_1_0_0_1_n_n.rhsBatch by decide), dif_pos (show (1 : Fin S16x65536.rank) ∈ dot_S16x16_S16x65536_S16x65536_1_0_0_1_n_n.rhsNonContracting by decide)]
  rfl

/-- The block product into a zero accumulator is, at `(p, q)`, the sum over the sixteen states `k` of the left factor at
    `(p, k)` times the right factor at `(k, q)`. -/
theorem product_apply (A : FVec Ideal S16x16 .bf16) (B : FVec Ideal S16x65536 .bf16) (p : Fin 16) (q : Fin 65536) :
    matmul dot_S16x16_S16x65536_S16x65536_1_0_0_1_n_n none A B (constant S16x65536 .f32 0x00000000#32) (ix2 p q)
      = ∑ k : Fin 16, A (ix2 p k) * B (ix2 k q) := by
  simp only [matmul]
  rw [Ideal.matmul_constant_zero_apply, ← Equiv.sum_comp (contrEquiv1 dot_S16x16_S16x65536_S16x65536_1_0_0_1_n_n 16 rfl rfl).symm]
  refine Finset.sum_congr rfl fun k _ => ?_
  have hk := contrEquiv1_symm_val dot_S16x16_S16x65536_S16x65536_1_0_0_1_n_n 16 rfl rfl k
  have el : dot_S16x16_S16x65536_S16x65536_1_0_0_1_n_n.lhsIdx (ix2 p q) ((contrEquiv1 dot_S16x16_S16x65536_S16x65536_1_0_0_1_n_n 16 rfl rfl).symm k) = ix2 p k := funext fun a => Fin.ext (by
    match a with
    | ⟨0, _⟩ => exact lhs_0 _ _
    | ⟨1, _⟩ => exact (lhs_1 _ _).trans hk)
  have er : dot_S16x16_S16x65536_S16x65536_1_0_0_1_n_n.rhsIdx (ix2 p q) ((contrEquiv1 dot_S16x16_S16x65536_S16x65536_1_0_0_1_n_n 16 rfl rfl).symm k) = ix2 k q := funext fun a => Fin.ext (by
    match a with
    | ⟨0, _⟩ => exact (rhs_0 _ _).trans hk
    | ⟨1, _⟩ => exact rhs_1 _ _)
  rw [el, er]

/-! ## The payload -/

/-- What the body stores is `Cert.Lse.G` of the block it loaded: entry `(p, q)` is the stabilised logarithm of row `p` of
    the matrix against column `q` of the block. -/
theorem pay_eq (X : Vec Ideal S16x65536 .f32) (T : Vec Ideal S16x16 .f32) :
    Gen.k0_pay1 (F := Ideal) X T = Cert.Lse.G (n := 65536) T X := by
  funext i
  obtain ⟨p, q, rfl⟩ : ∃ (p : Fin 16) (q : Fin 65536), i = ix2 p q := ⟨i 0, i 1, eq_ix2 i⟩
  rw [Cert.Lse.G_ix2]
  unfold Gen.k0_pay1 Cert.Lse.lse
  simp only []
  refine congrArg₂ (· + ·) (congrArg Ideal.log ?_) (maxBroadcast_apply X _ _ _ _ _ p q)
  refine (product_apply _ _ p q).trans (Finset.sum_congr rfl fun k _ => ?_)
  exact congrArg₂ (· * ·) (congrFun (shapeCast_self T _) (ix2 p k))
    (congrArg (fun m => Ideal.exp (X (ix2 k q) - m)) (maxBroadcast_apply X _ _ _ _ _ k q))

end Cert.KernelIdeal.PayValue

end
-- ==== Proof.RefValue.lean ====
/-
  The reference program's result, read entry by entry.

  The reference takes, for each of the two million columns `j` of its input `x`, the maximum `M j` of the column's
  sixteen entries (a reduction over the rows with a maximum body, from `-∞`), casts the maxima to one row and broadcasts
  the row down the sixteen rows; it subtracts, exponentiates, multiplies the sixteen-by-sixteen transfer matrix `T` into
  the result (a sum over the sixteen states), takes the logarithm and adds the broadcast maxima back.  Entry `(p, j)` of
  its result is therefore
      log (∑ₖ T(p,k) · exp (x(k,j) - M j)) + M j,
  the function `Cert.Lse.G` of the input.  The transfer matrix is carried as one term: nothing here looks inside it.
-/
import proofs.«147532_j13838384628287_1_alg».proof.Proof.Gen.ReferenceIdeal.Read
import proofs.«147532_j13838384628287_1_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx Idealize.SL.Sem Idealize.ShloMosaic.StableHlo
open Cert.ReferenceIdeal Cert.ReferenceIdeal.Gen Cert.ReferenceIdeal.Read

/-! ## The column maximum -/

/-- The rows can be reduced away: the shape fact that names the index with a row put back. -/
theorem reduces_rows : S16x2000000.Reduces [0] S2000000 := by decide

/-- A column index `j` with the row `k` put back on the reduced axis is the entry `(k, j)`, whatever the number of columns. -/
theorem lift_ix2 {n : Nat} (h : (⟨2, ![16, n]⟩ : Shape).Reduces [0] (⟨1, ![n]⟩ : Shape)) (j : Fin n)
    (k : Fin ((⟨2, ![16, n]⟩ : Shape).size 0)) : h.lift (ix1 j) k = ix2 (⟨k.val, k.isLt⟩ : Fin 16) j := by
  funext c; apply Fin.ext
  match c with
  | ⟨0, _⟩ => rfl
  | ⟨1, _⟩ => rfl

/-- From `-∞` the reduction over the sixteen rows with a maximum body is, at column `j`, the maximum of that column —
    for any number of columns. -/
theorem hostColMax {n : Nat} (x : FVec Ideal ⟨2, ![16, n]⟩ .f32)
    (h' : (⟨2, ![16, n]⟩ : Shape).ReducesTo [0] (⟨1, ![n]⟩ : Shape))
    (h : (⟨2, ![16, n]⟩ : Shape).Reduces [0] (⟨1, ![n]⟩ : Shape)) (hu : 0 < (⟨0, ![]⟩ : Shape).numel) (j : Fin n) :
    Host.reduce FloatOps.maximumf x (constant (⟨0, ![]⟩ : Shape) .f32 0xFF800000#32) h' hu (ix1 j)
      = Cert.Lse.colMax (fun k => x (ix2 k j)) := by
  refine (Host.reduce_eq_fold_single FloatOps.maximumf x _ h' h hu (ix1 j)).trans ?_
  have hf : (x ∘ h.lift (ix1 j)) = fun k : Fin 16 => x (ix2 k j) := funext fun k => congrArg x (lift_ix2 h j k)
  exact congrArg (fun f => Finset.fold max (Ideal.ofBits .f32 0xFF800000#32) f (Finset.univ : Finset (Fin 16))) hf

/-- So the reference's reduction reads, at column `j`, the maximum of that column of its input. -/
theorem colMax_apply (x0 : (⟨S16x2000000, .f32⟩ : BufTy).Contents (Elt Ideal)) (j : Fin 2000000) :
    val_main_v17 (F := Ideal) x0 (ix1 j) = Cert.Lse.colMax (fun k => x0 (ix2 k j)) := by
  unfold val_main_v17 val_main_cst_2
  exact hostColMax x0 reducesTo_S16x2000000_S2000000_d0 reduces_rows h_S_ j

/-- The maxima cast to one row read, at `(0, j)`, the maximum of column `j`. -/
theorem rowMax_apply (x0 : (⟨S16x2000000, .f32⟩ : BufTy).Contents (Elt Ideal)) (u : Fin 1) (j : Fin 2000000) :
    val_main_v18 (F := Ideal) x0 (ix2 u j) = Cert.Lse.colMax (fun k => x0 (ix2 k j)) := by
  refine (val_main_v18_apply x0 (ix2 u j)).trans ?_
  have e : idx_main_v18 (ix2 u j) = ix1 j := funext fun a => Fin.ext (by match a with | ⟨0, _⟩ => rfl)
  rw [e]
  exact colMax_apply x0 j

/-- The row of maxima broadcast down the sixteen rows (the copy that is subtracted) reads, at `(r, j)`, the maximum of
    column `j`. -/
theorem subMax_apply (x0 : (⟨S16x2000000, .f32⟩ : BufTy).Contents (Elt Ideal)) (r : Fin 16) (j : Fin 2000000) :
    val_main_v19 (F := Ideal) x0 (ix2 r j) = Cert.Lse.colMax (fun k => x0 (ix2 k j)) := by
  refine (val_main_v19_apply x0 (ix2 r j)).trans ?_
  have e : idx_main_v19 (ix2 r j) = ix2 (0 : Fin 1) j :=
    funext fun a => Fin.ext (by match a with | ⟨0, _⟩ => rfl | ⟨1, _⟩ => rfl)
  rw [e]
  exact rowMax_apply x0 0 j

/-- The second broadcast of the same row (the copy that is added back) likewise. -/
theorem addMax_apply (x0 : (⟨S16x2000000, .f32⟩ : BufTy).Contents (Elt Ideal)) (r : Fin 16) (j : Fin 2000000) :
    val_main_v24 (F := Ideal) x0 (ix2 r j) = Cert.Lse.colMax (fun k => x0 (ix2 k j)) := by
  refine (val_main_v24_apply x0 (ix2 r j)).trans ?_
  have e : idx_main_v24 (ix2 r j) = ix2 (0 : Fin 1) j :=
    funext fun a => Fin.ext (by match a with | ⟨0, _⟩ => rfl | ⟨1, _⟩ => rfl)
  rw [e]
  exact rowMax_apply x0 0 j

/-! ## The exponentials and the product -/

/-- The exponential of the input less its column's maximum, at `(k, j)`. -/
theorem expShift_apply (x0 : (⟨S16x2000000, .f32⟩ : BufTy).Contents (Elt Ideal)) (k : Fin 16) (j : Fin 2000000) :
    val_main_v21 (F := Ideal) x0 (ix2 k j)
      = Ideal.exp (x0 (ix2 k j) - Cert.Lse.colMax (fun k => x0 (ix2 k j))) := by
  refine (val_main_v21_apply x0 (ix2 k j)).trans ?_
  rw [val_main_v20_apply, subMax_apply]
  rfl

/-- The product with the transfer matrix, at `(p, j)`: the sum over the sixteen states. -/
theorem product_apply (x0 : (⟨S16x2000000, .f32⟩ : BufTy).Contents (Elt Ideal)) (x1 : (⟨S_, .f32⟩ : BufTy).Contents (Elt Ideal))
    (p : Fin 16) (j : Fin 2000000) :
    val_main_v22 (F := Ideal) x0 x1 (ix2 p j)
      = ∑ k : Fin 16, val_main_v16 (F := Ideal) x1 (ix2 p k)
          * Ideal.exp (x0 (ix2 k j) - Cert.Lse.colMax (fun k => x0 (ix2 k j))) := by
  refine (val_main_v22_apply x0 x1 (ix2 p j)).trans (Finset.sum_congr rfl fun k _ => ?_)
  have el : lidx_main_v22 (ix2 p j) k = ix2 p k :=
    funext fun a => Fin.ext (by match a with | ⟨0, _⟩ => rfl | ⟨1, _⟩ => rfl)
  have er : ridx_main_v22 (ix2 p j) k = ix2 k j :=
    funext fun a => Fin.ext (by match a with | ⟨0, _⟩ => rfl | ⟨1, _⟩ => rfl)
  rw [el, er, expShift_apply]

/-! ## The result -/

/-- The reference's result is `Cert.Lse.G` of its input and its transfer matrix. -/
theorem ref_eq (x0 : (⟨S16x2000000, .f32⟩ : BufTy).Contents (Elt Ideal)) (x1 : (⟨S_, .f32⟩ : BufTy).Contents (Elt Ideal)) :
    Read.val_main_v25 (F := Ideal) x0 x1
      = Cert.Lse.G (n := 2000000) (Read.val_main_v16 (F := Ideal) x1) x0 := by
  funext i
  obtain ⟨p, j, rfl⟩ : ∃ (p : Fin 16) (j : Fin 2000000), i = ix2 p j := ⟨i 0, i 1, eq_ix2 i⟩
  rw [Cert.Lse.G_ix2]
  refine (val_main_v25_apply x0 x1 (ix2 p j)).trans ?_
  rw [val_main_v23_apply, product_apply, addMax_apply]
  rfl

end Cert.ReferenceIdeal.RefValue

end
-- ==== Proof.Bridge.lean ====
/-
  Both programs build the 16×16 transfer matrix by the SAME host operations from the scalar argument
  (`r/15` everywhere, minus `r/15` and plus `1 - r` on the diagonal); so the matrix the kernel's region finds is the
  reference's matrix of the same scalar.  The operations are never opened: the two terms are one term.
-/
import proofs.«147532_j13838384628287_1_alg».proof.Proof.Gen.KernelIdeal.Frame
import proofs.«147532_j13838384628287_1_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo

set_option maxHeartbeats 2000000 in
theorem transfer_same
    (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v16 : Cert.KernelIdeal.S16x16.Idx → EReal)
      = Cert.ReferenceIdeal.Read.val_main_v16 (F := Ideal)
          (m ((c.tc : Thread Cert.KernelIdeal.nD Cert.KernelIdeal.τ).loc Cert.KernelIdeal.main_arg1)) := by
  show StableHlo.after (Cert.KernelIdeal.Gen.hostOps0 (F := Ideal)) (fun b => m (c, b)) Cert.KernelIdeal.main_v16 = _
  after_results_simp
  rfl

end Cert.Bridge

end
-- ==== Proof.lean ====
/-
  A stabilised log-matrix-exp, tiled by columns, against its plain statement.

  Sixteen states, 2,000,000 columns `x`, a scalar `r`.  Both programs first build, by the same host operations, the
  16×16 transfer matrix `T` (`r/15` everywhere, `1 - r` on the diagonal), and both compute, column by column,
      out(p, j) = log (∑ₖ T(p,k) · exp (x(k,j) - M(j))) + M(j),      M(j) = max (-∞, x(0,j), …, x(15,j)).
  The reference does so on the whole array at once.  The kernel cuts the columns into 31 blocks of 65536, the last
  one running 31,616 columns past the array's end, and at each block computes the same expression on the block —
  its matrix product a sum over the sixteen states, its two roundings to a shorter float format the identity on
  extended reals.  An entry of the result reads ONE column of the input, so the words past the array's end, which
  nothing names, reach only columns that are never written back; the blocks' written parts are consecutive column
  ranges that end exactly at the array's end.  Hence the two results agree entry by entry as extended reals, with
  no appeal to finiteness of the inputs: only that sums of products and maxima over sixteen terms do not depend on
  the order they are taken in, which the library's readings of the reductions already say.

  The modules: the specification (`Spec`, `SpecLaws`); the body's value entry by entry (`PayValue`) and the
  reference's (`RefValue`); the body as a triple (`KernelBody`, `KernelIdealBody`); the word-level kernel's frame
  (`KernelFrame`); the idealised kernel's pipeline point by point (`KernelIdealFrame`) and from blocks to the array
  (`KernelIdealFinal`); the two programs' transfer matrices are one term (`Bridge`).
-/
import proofs.«147532_j13838384628287_1_alg».proof.Defs
import proofs.«147532_j13838384628287_1_alg».proof.Proof.Gen.Kernel
import proofs.«147532_j13838384628287_1_alg».proof.Proof.Gen.KernelIdeal
import proofs.«147532_j13838384628287_1_alg».proof.Proof.Gen.ReferenceIdeal
import proofs.«147532_j13838384628287_1_alg».proof.Proof.Gen.Pre_finite_inputs
import proofs.«147532_j13838384628287_1_alg».proof.Proof.Gen.ReferenceIdeal.Run
import proofs.«147532_j13838384628287_1_alg».proof.Proof.Gen.ReferenceIdeal.Read
import proofs.«147532_j13838384628287_1_alg».proof.Proof.KernelFrame
import proofs.«147532_j13838384628287_1_alg».proof.Proof.KernelIdealFinal
import proofs.«147532_j13838384628287_1_alg».proof.Proof.PayValue
import proofs.«147532_j13838384628287_1_alg».proof.Proof.RefValue
import proofs.«147532_j13838384628287_1_alg».proof.Proof.Bridge

noncomputable section

namespace Cert.Proof

open Idealize.ShloMosaic Idealize.ShloMosaic.TcCoe Idealize.SL.Sem

/-- The body's one value is the specification's function of the matrix and the column block. -/
theorem pay_is_G : Cert.KernelIdeal.Hand.PayIsG := fun X T => Cert.KernelIdeal.PayValue.pay_eq X T

/-- The word-level kernel terminates, faults nowhere, and leaves its arguments as they were. -/
theorem frame_kernel : Cert.frame_Kernel := fun m ρ _ => Cert.Kernel.Hand.frame (F := Bits) m ρ

/-- So does the idealised kernel: its run with the result dropped. -/
theorem frame_kernel_ideal : Cert.frame_KernelIdeal := fun m ρ _ =>
  (θ_run Cert.KernelIdeal.defs _ _).mono (fun _ h c => (h c).2) (Cert.KernelIdeal.Hand.run m ρ pay_is_G)

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments both programs end with the specification's function of the transfer
    matrix of the scalar and the column array. -/
theorem algebraic : Cert.algebraic_KernelIdeal_ReferenceIdeal := by
  intro m ρ m' ρ' _ hagree
  refine ⟨fun c => Cert.Lse.G (n := 2000000) (Cert.KernelIdeal.Gen.V m c Cert.KernelIdeal.main_v16)
      (m ((c.tc : Thread Cert.KernelIdeal.nD Cert.KernelIdeal.τ).loc Cert.KernelIdeal.main_arg0)),
    Cert.KernelIdeal.Hand.run m ρ pay_is_G, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq, (hagree c).1, (hagree c).2]
  exact congrArg (fun T => Cert.Lse.G (n := 2000000) T
      (m ((c.tc : Thread Cert.KernelIdeal.nD Cert.KernelIdeal.τ).loc Cert.KernelIdeal.main_arg0)))
    (Cert.Bridge.transfer_same m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
